-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576x64 : Shape := ⟨2, ![1048576, 64]⟩
abbrev S262144x9 : Shape := ⟨2, ![262144, 9]⟩
abbrev S576x128 : Shape := ⟨2, ![576, 128]⟩
abbrev S_ : Shape := ⟨0, ![]⟩

class Facts : Prop where
  bcast_S_S1048576x64 : S_.BroadcastsInDim S1048576x64 (![] : Fin 0 → Fin S1048576x64.rank)
  reducesTo_S1048576x64_S_d0_1 : S1048576x64.ReducesTo [0, 1] S_
  h_S_ : 0 < S_.numel
  bcast_S_S576x128 : S_.BroadcastsInDim S576x128 (![] : Fin 0 → Fin S576x128.rank)
  reducesTo_S576x128_S_d0_1 : S576x128.ReducesTo [0, 1] S_

variable [Facts]

def fn {F : FTy → Type} [FloatOps F] (main_arg0 : FVec F S1048576x64 .f32) (main_arg1 : IVec S262144x9 32) (main_arg2 : FVec F S576x128 .f32) : IVec S_ 1 :=
  let main_v0 : FVec F S1048576x64 .f32 := Host.absf main_arg0
  let main_cst : FVec F S_ .f32 := constant S_ .f32 0x7F800000#32
  let main_v1 : FVec F S1048576x64 .f32 := broadcastInDim S1048576x64 ![] bcast_S_S1048576x64 main_cst
  let main_v2 : IVec S1048576x64 1 := cmpf .olt main_v0 main_v1
  let main_c : IVec S_ 1 := constantI S_ 1 1#1
  let main_v3 : IVec S_ 1 := (fun x v => Host.reduce IntOp.andi x v reducesTo_S1048576x64_S_d0_1 h_S_) main_v2 main_c
  let main_v4 : FVec F S576x128 .f32 := Host.absf main_arg2
  let main_cst_0 : FVec F S_ .f32 := constant S_ .f32 0x7F800000#32
  let main_v5 : FVec F S576x128 .f32 := broadcastInDim S576x128 ![] bcast_S_S576x128 main_cst_0
  let main_v6 : IVec S576x128 1 := cmpf .olt main_v4 main_v5
  let main_c_1 : IVec S_ 1 := constantI S_ 1 1#1
  let main_v7 : IVec S_ 1 := (fun x v => Host.reduce IntOp.andi x v reducesTo_S576x128_S_d0_1 h_S_) main_v6 main_c_1
  let main_v8 : IVec S_ 1 := andi main_v3 main_v7
  main_v8
-- ==== Kernel.lean ====
abbrev S1048576x64 : Shape := ⟨2, ![1048576, 64]⟩
abbrev S262144x9 : Shape := ⟨2, ![262144, 9]⟩
abbrev S576x128 : Shape := ⟨2, ![576, 128]⟩
abbrev S_ : Shape := ⟨0, ![]⟩
abbrev S262144x9x1 : Shape := ⟨3, ![262144, 9, 1]⟩
abbrev S1 : Shape := ⟨1, ![1]⟩
abbrev S1x1x1 : Shape := ⟨3, ![1, 1, 1]⟩
abbrev S262144x9x64 : Shape := ⟨3, ![262144, 9, 64]⟩
abbrev S262144x576 : Shape := ⟨2, ![262144, 576]⟩
abbrev S262144x128 : Shape := ⟨2, ![262144, 128]⟩
abbrev S4096x576 : Shape := ⟨2, ![4096, 576]⟩
abbrev S4096x128 : Shape := ⟨2, ![4096, 128]⟩

abbrev nBuf : Space → Nat
  | .hbm => 28
  | .vmem => 5
  | .smem => 0
  | _ => 0

abbrev bufTy : (tb : Table) → Fin (tcTables nBuf tb) → BufTy
  | .hbm, ⟨0, _⟩ => ⟨S1048576x64, .f32⟩
  | .hbm, ⟨1, _⟩ => ⟨S262144x9, .i32⟩
  | .hbm, ⟨2, _⟩ => ⟨S576x128, .f32⟩
  | .hbm, ⟨3, _⟩ => ⟨S_, .i32⟩
  | .hbm, ⟨4, _⟩ => ⟨S262144x9, .i32⟩
  | .hbm, ⟨5, _⟩ => ⟨S262144x9, .i1⟩
  | .hbm, ⟨6, _⟩ => ⟨S_, .i32⟩
  | .hbm, ⟨7, _⟩ => ⟨S262144x9, .i32⟩
  | .hbm, ⟨8, _⟩ => ⟨S262144x9, .i32⟩
  | .hbm, ⟨9, _⟩ => ⟨S262144x9, .i32⟩
  | .hbm, ⟨10, _⟩ => ⟨S262144x9x1, .i32⟩
  | .hbm, ⟨11, _⟩ => ⟨S1, .i32⟩
  | .hbm, ⟨12, _⟩ => ⟨S_, .i32⟩
  | .hbm, ⟨13, _⟩ => ⟨S262144x9x1, .i32⟩
  | .hbm, ⟨14, _⟩ => ⟨S262144x9x1, .i1⟩
  | .hbm, ⟨15, _⟩ => ⟨S1x1x1, .i32⟩
  | .hbm, ⟨16, _⟩ => ⟨S262144x9x1, .i32⟩
  | .hbm, ⟨17, _⟩ => ⟨S262144x9x1, .i1⟩
  | .hbm, ⟨18, _⟩ => ⟨S262144x9x1, .i1⟩
  | .hbm, ⟨19, _⟩ => ⟨S_, .i1⟩
  | .hbm, ⟨20, _⟩ => ⟨S262144x9, .i1⟩
  | .hbm, ⟨21, _⟩ => ⟨S262144x9x64, .f32⟩
  | .hbm, ⟨22, _⟩ => ⟨S262144x9x64, .i1⟩
  | .hbm, ⟨23, _⟩ => ⟨S_, .f32⟩
  | .hbm, ⟨24, _⟩ => ⟨S262144x9x64, .f32⟩
  | .hbm, ⟨25, _⟩ => ⟨S262144x9x64, .f32⟩
  | .hbm, ⟨26, _⟩ => ⟨S262144x576, .f32⟩
  | .hbm, ⟨27, _⟩ => ⟨S262144x128, .f32⟩
  | .local _ .vmem, ⟨0, _⟩ => ⟨S4096x576, .f32⟩
  | .local _ .vmem, ⟨1, _⟩ => ⟨S4096x576, .f32⟩
  | .local _ .vmem, ⟨2, _⟩ => ⟨S576x128, .f32⟩
  | .local _ .vmem, ⟨3, _⟩ => ⟨S4096x128, .f32⟩
  | .local _ .vmem, ⟨4, _⟩ => ⟨S4096x128, .f32⟩
  | _, _ => ⟨S1048576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x576 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S576x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  bcast_S_S262144x9 : S_.BroadcastsInDim S262144x9 (![] : Fin 0 → Fin S262144x9.rank)
  bcast_S262144x9_S262144x9x1_0_1 : S262144x9.BroadcastsInDim S262144x9x1 (![0, 1] : Fin 2 → Fin S262144x9x1.rank)
  bcast_S_S262144x9x1 : S_.BroadcastsInDim S262144x9x1 (![] : Fin 0 → Fin S262144x9x1.rank)
  bcast_S1_S1x1x1_2 : S1.BroadcastsInDim S1x1x1 (![2] : Fin 1 → Fin S1x1x1.rank)
  bcast_S1x1x1_S262144x9x1_0_1_2 : S1x1x1.BroadcastsInDim S262144x9x1 (![0, 1, 2] : Fin 3 → Fin S262144x9x1.rank)
  reducesTo_S262144x9x1_S262144x9_d2 : S262144x9x1.ReducesTo [2] S262144x9
  h_S_ : 0 < S_.numel
  bcast_S262144x9_S262144x9x64_0_1 : S262144x9.BroadcastsInDim S262144x9x64 (![0, 1] : Fin 2 → Fin S262144x9x64.rank)
  bcast_S_S262144x9x64 : S_.BroadcastsInDim S262144x9x64 (![] : Fin 0 → Fin S262144x9x64.rank)
  shapeCasts_S262144x9x64_S262144x576 : S262144x9x64.ShapeCasts S262144x576
  inb_S4096x576_S4096x576_0_0 : ∀ a, (![0, 0] : Fin 2 → Nat) a + S4096x576.size a ≤ S4096x576.size a
  h_S4096x576 : 0 < S4096x576.numel
  shapeCasts_S4096x576_S4096x576 : S4096x576.ShapeCasts S4096x576
  bitsLt_bf16_f32 : FTy.bits .bf16 < FTy.bits .f32
  inb_S576x128_S576x128_0_0 : ∀ a, (![0, 0] : Fin 2 → Nat) a + S576x128.size a ≤ S576x128.size a
  h_S576x128 : 0 < S576x128.numel
  inb_S4096x128_S4096x128_0_0 : ∀ a, (![0, 0] : Fin 2 → Nat) a + S4096x128.size a ≤ S4096x128.size a
  h_S4096x128 : 0 < S4096x128.numel
  gather_S1048576x64_S262144x9x1_S262144x9x64_2_0_n_n_0_2_164_wf : GatherDims.WF S1048576x64 S262144x9x1 S262144x9x64 [2] [0] [] [0] [] 2 ![1, 64]
  dot_S4096x576_S576x128_S4096x128_1_0_0_1_n_n_wf : DotDims.WF S4096x576 S576x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x576.size a ≤ S262144x576.size a
  hwx0_0 : ∀ i : grid0.Coords, EltTy.bits .f32 = 32 ∨ (Rect.block (s := S262144x576) S4096x576.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S576x128.size a ≤ S576x128.size a
  hwx0_1 : ∀ i : grid0.Coords, EltTy.bits .f32 = 32 ∨ (Rect.block (s := S576x128) S576x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x128.size a ≤ S262144x128.size a
  hwx0_2 : ∀ i : grid0.Coords, EltTy.bits .f32 = 32 ∨ (Rect.block (s := S262144x128) S4096x128.size (cc0_transform_2 i) (hinb0_2 i)).WholeWords (EltTy.packing .f32)

variable [Facts₀]

def gather_S1048576x64_S262144x9x1_S262144x9x64_2_0_n_n_0_2_164 : GatherDims S1048576x64 S262144x9x1 S262144x9x64 where
  offsetDims := [2]
  collapsedSliceDims := [0]
  operandBatchingDims := []
  startIndicesBatchingDims := []
  startIndexMap := [0]
  indexVectorDim := 2
  sliceSizes := ![1, 64]
  wf := gather_S1048576x64_S262144x9x1_S262144x9x64_2_0_n_n_0_2_164_wf
def dot_S4096x576_S576x128_S4096x128_1_0_0_1_n_n : DotDims S4096x576 S576x128 S4096x128 where
  lhsContracting := [1]
  rhsContracting := [0]
  lhsNonContracting := [0]
  rhsNonContracting := [1]
  lhsBatch := []
  rhsBatch := []
  wf := dot_S4096x576_S576x128_S4096x128_1_0_0_1_n_n_wf

abbrev win0_0 : Pipeline.Window sig grid0 :=
  Pipeline.Window.ofSpec (Memref.whole main_v1) S4096x576.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S576x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1048576x64 : Shape := ⟨2, ![1048576, 64]⟩
abbrev S262144x9 : Shape := ⟨2, ![262144, 9]⟩
abbrev S576x128 : Shape := ⟨2, ![576, 128]⟩
abbrev S_ : Shape := ⟨0, ![]⟩
abbrev S262144x9x1 : Shape := ⟨3, ![262144, 9, 1]⟩
abbrev S1 : Shape := ⟨1, ![1]⟩
abbrev S1x1x1 : Shape := ⟨3, ![1, 1, 1]⟩
abbrev S262144x9x64 : Shape := ⟨3, ![262144, 9, 64]⟩
abbrev S262144x576 : Shape := ⟨2, ![262144, 576]⟩
abbrev S262144x128 : Shape := ⟨2, ![262144, 128]⟩

abbrev nBuf : Space → Nat
  | .hbm => 28
  | .vmem => 0
  | .smem => 0
  | _ => 0

abbrev bufTy : (tb : Table) → Fin (tcTables nBuf tb) → BufTy
  | .hbm, ⟨0, _⟩ => ⟨S1048576x64, .f32⟩
  | .hbm, ⟨1, _⟩ => ⟨S262144x9, .i32⟩
  | .hbm, ⟨2, _⟩ => ⟨S576x128, .f32⟩
  | .hbm, ⟨3, _⟩ => ⟨S_, .i32⟩
  | .hbm, ⟨4, _⟩ => ⟨S262144x9, .i32⟩
  | .hbm, ⟨5, _⟩ => ⟨S262144x9, .i1⟩
  | .hbm, ⟨6, _⟩ => ⟨S_, .i32⟩
  | .hbm, ⟨7, _⟩ => ⟨S262144x9, .i32⟩
  | .hbm, ⟨8, _⟩ => ⟨S262144x9, .i32⟩
  | .hbm, ⟨9, _⟩ => ⟨S262144x9, .i32⟩
  | .hbm, ⟨10, _⟩ => ⟨S262144x9x1, .i32⟩
  | .hbm, ⟨11, _⟩ => ⟨S1, .i32⟩
  | .hbm, ⟨12, _⟩ => ⟨S_, .i32⟩
  | .hbm, ⟨13, _⟩ => ⟨S262144x9x1, .i32⟩
  | .hbm, ⟨14, _⟩ => ⟨S262144x9x1, .i1⟩
  | .hbm, ⟨15, _⟩ => ⟨S1x1x1, .i32⟩
  | .hbm, ⟨16, _⟩ => ⟨S262144x9x1, .i32⟩
  | .hbm, ⟨17, _⟩ => ⟨S262144x9x1, .i1⟩
  | .hbm, ⟨18, _⟩ => ⟨S262144x9x1, .i1⟩
  | .hbm, ⟨19, _⟩ => ⟨S_, .i1⟩
  | .hbm, ⟨20, _⟩ => ⟨S262144x9, .i1⟩
  | .hbm, ⟨21, _⟩ => ⟨S262144x9x64, .f32⟩
  | .hbm, ⟨22, _⟩ => ⟨S262144x9x64, .i1⟩
  | .hbm, ⟨23, _⟩ => ⟨S_, .f32⟩
  | .hbm, ⟨24, _⟩ => ⟨S262144x9x64, .f32⟩
  | .hbm, ⟨25, _⟩ => ⟨S262144x9x64, .f32⟩
  | .hbm, ⟨26, _⟩ => ⟨S262144x576, .f32⟩
  | .hbm, ⟨27, _⟩ => ⟨S262144x128, .f32⟩
  | _, _ => ⟨S1048576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩

abbrev nD : Nat := 1
abbrev τ : Topo := Topo.v7x

variable {F : FTy → Type} [FloatOps F]

class Facts₀ : Prop where
  bcast_S_S262144x9 : S_.BroadcastsInDim S262144x9 (![] : Fin 0 → Fin S262144x9.rank)
  bcast_S262144x9_S262144x9x1_0_1 : S262144x9.BroadcastsInDim S262144x9x1 (![0, 1] : Fin 2 → Fin S262144x9x1.rank)
  bcast_S_S262144x9x1 : S_.BroadcastsInDim S262144x9x1 (![] : Fin 0 → Fin S262144x9x1.rank)
  bcast_S1_S1x1x1_2 : S1.BroadcastsInDim S1x1x1 (![2] : Fin 1 → Fin S1x1x1.rank)
  bcast_S1x1x1_S262144x9x1_0_1_2 : S1x1x1.BroadcastsInDim S262144x9x1 (![0, 1, 2] : Fin 3 → Fin S262144x9x1.rank)
  reducesTo_S262144x9x1_S262144x9_d2 : S262144x9x1.ReducesTo [2] S262144x9
  h_S_ : 0 < S_.numel
  bcast_S262144x9_S262144x9x64_0_1 : S262144x9.BroadcastsInDim S262144x9x64 (![0, 1] : Fin 2 → Fin S262144x9x64.rank)
  bcast_S_S262144x9x64 : S_.BroadcastsInDim S262144x9x64 (![] : Fin 0 → Fin S262144x9x64.rank)
  shapeCasts_S262144x9x64_S262144x576 : S262144x9x64.ShapeCasts S262144x576
  gather_S1048576x64_S262144x9x1_S262144x9x64_2_0_n_n_0_2_164_wf : GatherDims.WF S1048576x64 S262144x9x1 S262144x9x64 [2] [0] [] [0] [] 2 ![1, 64]
  dot_S262144x576_S576x128_S262144x128_1_0_0_1_n_n_wf : DotDims.WF S262144x576 S576x128 S262144x128 [1] [0] [0] [1] [] []

variable [Facts₀]

def gather_S1048576x64_S262144x9x1_S262144x9x64_2_0_n_n_0_2_164 : GatherDims S1048576x64 S262144x9x1 S262144x9x64 where
  offsetDims := [2]
  collapsedSliceDims := [0]
  operandBatchingDims := []
  startIndicesBatchingDims := []
  startIndexMap := [0]
  indexVectorDim := 2
  sliceSizes := ![1, 64]
  wf := gather_S1048576x64_S262144x9x1_S262144x9x64_2_0_n_n_0_2_164_wf
def dot_S262144x576_S576x128_S262144x128_1_0_0_1_n_n : DotDims S262144x576 S576x128 S262144x128 where
  lhsContracting := [1]
  rhsContracting := [0]
  lhsNonContracting := [0]
  rhsNonContracting := [1]
  lhsBatch := []
  rhsBatch := []
  wf := dot_S262144x576_S576x128_S262144x128_1_0_0_1_n_n_wf

class Facts : Prop extends Facts₀ where

variable [Facts]
-- ==== Proof.LibProductAt.lean ====
/-
  A matrix product read at an index.

  Dimension numbers of a product [A, K] × [K, B] → [A, B] that contract the left factor's axis 1 with the right factor's
  axis 0, with no batch axis, index the two factors at the result index (p, q) and the contraction index k by (p, k) and
  (k, q). So any sum over the contraction index — a product into a zero accumulator, a host dot_general — is the sum
  over k < K of l (p, k) · r (k, q), and in particular reads only row p of the left factor and column q of the right one.
  General: nothing here depends on a particular program. An instance supplies the two kept coordinates (`hl0`, `hr1`:
  each is `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.ProductAt

open Idealize.ShloMosaic

/-- The index (p, q) of a two-axis shape, from the two numbers and their bounds. -/
abbrev at2 {n0 n1 : Nat} (p : Nat) (hp : p < n0) (q : Nat) (hq : q < n1) : (⟨2, ![n0, n1]⟩ : Shape).Idx := fun a => match a with
  | ⟨0, _⟩ => ⟨p, hp⟩
  | ⟨1, _⟩ => ⟨q, hq⟩

/-- Equal coordinates give the same index. -/
theorem at2_congr {n0 n1 : Nat} {p p' q q' : Nat} (hp : p < n0) (hp' : p' < n0) (hq : q < n1) (hq' : q' < n1)
    (ep : p = p') (eq : q = q') : (at2 p hp q hq : (⟨2, ![n0, n1]⟩ : Shape).Idx) = at2 p' hp' q' hq' := by
  subst ep; subst eq; rfl

/-- Every index of a two-axis shape is the index of its two coordinates. -/
theorem eq_at2 {n0 n1 : Nat} (j : (⟨2, ![n0, n1]⟩ : Shape).Idx) :
    j = at2 (j 0).val (ValueIdx.idx2_lt0 j) (j 1).val (ValueIdx.idx2_lt1 j) := by
  funext a; match a with | ⟨0, _⟩ => rfl | ⟨1, _⟩ => rfl

/-- THE SUM, RE-INDEXED. Dimension numbers that contract the left factor's axis 1 with the right factor's axis 0 and
    keep the left factor's axis 0 and the right factor's axis 1 as the result's rows and columns (`hl0`, `hr1`): the sum
    over the contraction index is the sum over k < K of l (p, k) · r (k, q) at the result index (p, q). -/
theorem product_sum_eq {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (j : (⟨2, ![A, B]⟩ : Shape).Idx) :
    ∑ q : d.contr.Idx, l (d.lhsIdx j q) * r (d.rhsIdx j q)
      = ∑ k : Fin K, l (at2 (j 0).val (ValueIdx.idx2_lt0 j) k.val k.isLt) * r (at2 k.val k.isLt (j 1).val (ValueIdx.idx2_lt1 j)) := by
  rw [← Equiv.sum_comp (ValueIdx.contrEquiv1 d K hr hs).symm]
  refine Finset.sum_congr rfl fun k _ => ?_
  have hk := ValueIdx.contrEquiv1_symm_val d K hr hs k
  have el : d.lhsIdx j ((ValueIdx.contrEquiv1 d K hr hs).symm k) = at2 (j 0).val (ValueIdx.idx2_lt0 j) k.val k.isLt :=
    funext fun a => Fin.ext (by
      match a with
      | ⟨0, _⟩ => exact hl0 j _
      | ⟨1, _⟩ => exact (d.lhsIdx_val_of_single hlc j _).trans hk)
  have er : d.rhsIdx j ((ValueIdx.contrEquiv1 d K hr hs).symm k) = at2 k.val k.isLt (j 1).val (ValueIdx.idx2_lt1 j) :=
    funext fun a => Fin.ext (by
      match a with
      | ⟨0, _⟩ => exact (d.rhsIdx_val_of_single hrc j _).trans hk
      | ⟨1, _⟩ => exact hr1 j _)
  rw [el, er]

end Cert.ProductAt

end
-- ==== Proof.KernelTile.lean ====
/-
  One tile of the kernel, read entry by entry.

  At a grid point the kernel body loads a tile of 4096 rows and the whole weight matrix, narrows both (no change on
  the extended reals), multiplies them into a zero accumulator and stores the 4096 × 128 product. So entry (p, q) of
  what it stores is the sum over k < 576 of tile (p, k) · weight (k, q).
-/
import proofs.«125085_j25400436588641_1_alg».proof.Proof.Gen.KernelIdeal.Skeleton
import proofs.«125085_j25400436588641_1_alg».proof.Proof.LibProductAt
import Idealize.ShloMosaic.Lib.Pipeline.Value

noncomputable section

namespace Cert.KernelIdeal.Tile

open Cert.KernelIdeal Cert.KernelIdeal.Gen Idealize.ShloMosaic Cert.ProductAt

/-- The product's dimension numbers keep the result's row as the left factor's row. -/
theorem keeps_row (j : S4096x128.Idx) (q : dot_S4096x576_S576x128_S4096x128_1_0_0_1_n_n.contr.Idx) :
    (dot_S4096x576_S576x128_S4096x128_1_0_0_1_n_n.lhsIdx j q 0).val = (j 0).val := by
  unfold DotDims.lhsIdx
  rw [dif_neg (by decide), dif_pos (by decide)]
  rfl

/-- and its column as the right factor's column. -/
theorem keeps_col (j : S4096x128.Idx) (q : dot_S4096x576_S576x128_S4096x128_1_0_0_1_n_n.contr.Idx) :
    (dot_S4096x576_S576x128_S4096x128_1_0_0_1_n_n.rhsIdx j q 1).val = (j 1).val := by
  unfold DotDims.rhsIdx
  rw [dif_neg (by decide), dif_pos (by decide)]
  rfl

/-- Entry (p, q) of the stored tile is the sum over k < 576 of tile (p, k) · weight (k, q). -/
theorem stored_at (x0 : Vec Ideal S4096x576 .f32) (x1 : Vec Ideal S576x128 .f32) (j : S4096x128.Idx) :
    k0_pay1 (F := Ideal) x0 x1 j
      = ∑ k : Fin 576, x0 (at2 (j 0).val (ValueIdx.idx2_lt0 j) k.val k.isLt) * x1 (at2 k.val k.isLt (j 1).val (ValueIdx.idx2_lt1 j)) := by
  unfold k0_pay1
  rw [shapeCast_self]
  refine (Ideal.matmul_constant_zero_apply dot_S4096x576_S576x128_S4096x128_1_0_0_1_n_n none _ _ j).trans ?_
  -- narrowing to bf16 is the identity on the extended reals
  show ∑ k, x0 (dot_S4096x576_S576x128_S4096x128_1_0_0_1_n_n.lhsIdx j k) * x1 (dot_S4096x576_S576x128_S4096x128_1_0_0_1_n_n.rhsIdx j k) = _
  exact product_sum_eq (φ₁ := .f32) (φ₂ := .f32) dot_S4096x576_S576x128_S4096x128_1_0_0_1_n_n rfl rfl rfl rfl keeps_row keeps_col x0 x1 j

end Cert.KernelIdeal.Tile

end
-- ==== Proof.Filter.lean ====
/-
  The dense filter, as one function of its two factors.

  A coarse vertex's row holds its nine gathered neighbours' 64 values laid side by side, 576 numbers; the filter
  multiplies that row into the 576 × 128 weight matrix. Entry (p, q) of the result is the sum over k < 576 of
  rows (p, k) · weight (k, q), an exact sum of exact products on the extended reals. It reads row p of the rows and
  column q of the weights and nothing else, so how the rows are cut into tiles cannot change it.
-/
import proofs.«125085_j25400436588641_1_alg».proof.Proof.LibProductAt

noncomputable section

namespace Cert.Filter

open Idealize.ShloMosaic Cert.ProductAt

/-- rows · weight: entry (p, q) is the sum over k < 576 of rows (p, k) · weight (k, q). -/
def filtered (rows : FVec Ideal (⟨2, ![262144, 576]⟩ : Shape) .f32) (weight : FVec Ideal (⟨2, ![576, 128]⟩ : Shape) .f32) :
    FVec Ideal (⟨2, ![262144, 128]⟩ : Shape) .f32 :=
  fun i => ∑ k : Fin 576, rows (at2 (i 0).val (ValueIdx.idx2_lt0 i) k.val k.isLt)
    * weight (at2 k.val k.isLt (i 1).val (ValueIdx.idx2_lt1 i))

end Cert.Filter

end
-- ==== Proof.KernelArray.lean ====
/-
  The kernel's result array, from its 64 tiles.

  Grid point t works on rows 4096·t … 4096·t + 4095: it is handed that tile of the rows and the whole weight matrix,
  and writes back the same tile of the result. Entry (p, q) of what it writes is the sum over k < 576 of
  tile (p, k) · weight (k, q), which is entry (4096·t + p, q) of rows · weight, since that entry reads only row
  4096·t + p of the rows. The 64 tiles are disjoint and fill the 262144 rows (row r lies in tile r / 4096), so after the
  run the result array is rows · weight.
-/
import proofs.«125085_j25400436588641_1_alg».proof.Proof.Gen.KernelIdeal.Value
import proofs.«125085_j25400436588641_1_alg».proof.Proof.KernelTile
import proofs.«125085_j25400436588641_1_alg».proof.Proof.Filter

noncomputable section

namespace Cert.KernelIdeal.Whole

open Cert.KernelIdeal Cert.KernelIdeal.Gen Idealize.ShloMosaic Idealize.ShloMosaic.TcCoe Idealize.SL.Sem
open Cert.ProductAt Cert.Filter
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Where each window's tile sits at grid point t: the rows' and the result's at block row t, the weights' at the
    origin (decided over the 64 points). -/
theorem tile_places : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Entry y of the rows' tile at point t is entry (4096·t + y₀, y₁) of the rows, whatever they hold. -/
theorem rows_tile_at (c : Dev nD) (t : Fin cfg0.N) (R : Buf (Elt Ideal) ((c : Thread nD τ).loc (Pipeline.arrRef spec0 0)))
    (y : S4096x576.Idx) (i : S262144x576.Idx)
    (h0 : (i 0).val = t.val * 4096 + (y 0).val) (h1 : (i 1).val = (y 1).val) :
    ((cfg0.win 0).blk t).view.read (Elt Ideal) R y = R i := by
  obtain ⟨e00, e01, -⟩ := tile_places t
  have e : ((cfg0.win 0).blk t).view.emb y = i := by
    funext a; apply Fin.ext
    match a with
    | ⟨0, _⟩ => show win0_0.index t (0 : Fin 2) * 4096 + 1 * (y 0).val = (i 0).val; omega
    | ⟨1, _⟩ => show win0_0.index t (1 : Fin 2) * 576 + 1 * (y 1).val = (i 1).val; omega
  show R (((cfg0.win 0).blk t).view.emb y) = R i
  rw [e]

/-- The weights' tile at every point is the whole weight matrix. -/
theorem weight_tile_at (c : Dev nD) (t : Fin cfg0.N) (W : Buf (Elt Ideal) ((c : Thread nD τ).loc (Pipeline.arrRef spec0 1)))
    (y : S576x128.Idx) (i : S576x128.Idx)
    (h0 : (i 0).val = (y 0).val) (h1 : (i 1).val = (y 1).val) :
    ((cfg0.win 1).blk t).view.read (Elt Ideal) W y = W i := by
  obtain ⟨-, -, e10, e11, -⟩ := tile_places t
  have e : ((cfg0.win 1).blk t).view.emb y = i := by
    funext a; apply Fin.ext
    match a with
    | ⟨0, _⟩ => show win0_1.index t (0 : Fin 2) * 576 + 1 * (y 0).val = (i 0).val; omega
    | ⟨1, _⟩ => show win0_1.index t (1 : Fin 2) * 128 + 1 * (y 1).val = (i 1).val; omega
  show W (((cfg0.win 1).blk t).view.emb y) = W i
  rw [e]

/-- Entry j of the result's tile at point t sits at (4096·t + j₀, j₁) of the result array. -/
theorem out_place (t : Fin cfg0.N) (j : S4096x128.Idx) :
    ((((cfg0.win 2).blk t).view.emb j) 0).val = t.val * 4096 + (j 0).val
    ∧ ((((cfg0.win 2).blk t).view.emb j) 1).val = (j 1).val := by
  obtain ⟨-, -, -, -, e20, e21⟩ := tile_places t
  constructor
  · show win0_2.index t (0 : Fin 2) * 4096 + 1 * (j 0).val = _; omega
  · show win0_2.index t (1 : Fin 2) * 128 + 1 * (j 1).val = _; omega

/-- The body's result on tile t of any rows R and on the whole of any weights W, read through the result's window, is
    tile t of R · W: entry (p, q) of the tile reads row 4096·t + p of R and column q of W. -/
theorem tile_of_product (c : Dev nD) (t : Fin cfg0.N)
    (R : Buf (Elt Ideal) ((c : Thread nD τ).loc (Pipeline.arrRef spec0 0)))
    (W : Buf (Elt Ideal) ((c : Thread nD τ).loc (Pipeline.arrRef spec0 1))) :
    (cfg0.win 2).cut (grid0.coords t)
        (out0_2 (((cfg0.win 0).blk t).view.read (Elt Ideal) R) (((cfg0.win 1).blk t).view.read (Elt Ideal) W))
      = ((cfg0.win 2).blk t).view.read (Elt Ideal) (filtered R W) := by
  unfold out0_2
  rw [View.canon_unit_zero origin]
  simp only [View.ld_unit_zero (S := S4096x576) origin, View.ld_unit_zero (S := S576x128) origin]
  funext j
  show k0_pay1 (((cfg0.win 0).blk t).view.read (Elt Ideal) R) (((cfg0.win 1).blk t).view.read (Elt Ideal) W) j
    = filtered R W (((cfg0.win 2).blk t).view.emb j)
  refine (Tile.stored_at _ _ j).trans ?_
  unfold filtered
  refine Finset.sum_congr rfl fun k _ => ?_
  have hr := rows_tile_at c t R (at2 (j 0).val (ValueIdx.idx2_lt0 j) k.val k.isLt)
    (at2 ((((cfg0.win 2).blk t).view.emb j) 0).val (ValueIdx.idx2_lt0 _) k.val k.isLt) (out_place t j).1 rfl
  have hw := weight_tile_at c t W (at2 k.val k.isLt (j 1).val (ValueIdx.idx2_lt1 j))
    (at2 k.val k.isLt ((((cfg0.win 2).blk t).view.emb j) 1).val (ValueIdx.idx2_lt1 _)) rfl (out_place t j).2
  rw [hr, hw]

/-- WHAT POINT t WRITES BACK is tile t of rows · weight, the rows and the weights as the launch finds them. -/
theorem flushed_eq (c : Dev nD) (t : Fin cfg0.N) :
    (dats m 0 c).flushed 2 t
      = ((cfg0.win 2).blk t).view.read (Elt Ideal)
          (filtered (V m c (Pipeline.arrRef spec0 0)) (V m c (Pipeline.arrRef spec0 1))) := by
  rw [Value.flushed2]
  exact tile_of_product c t (V m c (Pipeline.arrRef spec0 0)) (V m c (Pipeline.arrRef spec0 1))

/-- An index of the result array is in point t's tile iff each coordinate is in the tile's range on its axis. -/
theorem mem_tile (t : Fin cfg0.N) (i : S262144x128.Idx) :
    i ∈ ((cfg0.win 2).blk t).view.set ↔ ∀ a : Fin 2, win0_2.index t a * S4096x128.size a ≤ (i a).val
      ∧ (i a).val < win0_2.index t a * S4096x128.size a + S4096x128.size a := by
  show i ∈ ((View.whole main_v2).slice (win0_2.rect t)).set ↔ _
  rw [View.set_slice_whole, Rect.mem_set_unit]
  exact Iff.rfl

/-- Every entry of the result array is in some point's tile: row r in tile r / 4096. -/
theorem covered (i : S262144x128.Idx) :
    ∃ t : Fin cfg0.N, (cfg0.win 2).flush t = true ∧ i ∈ ((cfg0.win 2).blk t).view.set := by
  have hi0 : (i 0).val < 262144 := (i 0).isLt
  have hi1 : (i 1).val < 128 := (i 1).isLt
  have hN : cfg0.N = 64 := N_0
  obtain ⟨t, ht⟩ : ∃ t : Fin cfg0.N, t.val = (i 0).val / 4096 := ⟨⟨(i 0).val / 4096, by rw [hN]; omega⟩, rfl⟩
  obtain ⟨-, -, -, -, e20, e21⟩ := tile_places t
  refine ⟨t, flush0_2 t, ?_⟩
  rw [mem_tile]
  intro a
  match a with
  | ⟨0, _⟩ =>
    show win0_2.index t (0 : Fin 2) * 4096 ≤ (i 0).val ∧ (i 0).val < win0_2.index t (0 : Fin 2) * 4096 + 4096
    omega
  | ⟨1, _⟩ =>
    show win0_2.index t (1 : Fin 2) * 128 ≤ (i 1).val ∧ (i 1).val < win0_2.index t (1 : Fin 2) * 128 + 128
    omega

/-- THE RESULT ARRAY after the run is rows · weight. -/
theorem whole (c : Dev nD) :
    (dats m 0 c).arrAt 2 cfg0.N = filtered (V m c (Pipeline.arrRef spec0 0)) (V m c (Pipeline.arrRef spec0 1)) :=
  (dats m 0 c).arrAt_eq_of_cover 2 _ (fun t _ => flushed_eq m c t) covered

end Cert.KernelIdeal.Whole

end
-- ==== Proof.Rows.lean ====
/-
  The rows the filter is applied to, as one function of the lattice values and the neighbour indices.

  Before the product both programs do the same thing: a negative neighbour index has the table length 1048576 added, an
  index then still outside 0 … 1048575 selects a row of NaN and any other the table's row at that index; each coarse vertex's
  nine selected rows of 64 values are laid side by side as one row of 576. Both programs print this as the same
  operations on the same literals, so the certificate names the whole chain as one function and never looks inside
  it: the filter's result depends on the inputs only through these rows and the weights.
-/
import proofs.«125085_j25400436588641_1_alg».proof.Proof.Gen.KernelIdeal

noncomputable section

namespace Cert.KernelIdeal.Rows

open Cert.KernelIdeal Cert.KernelIdeal.Gen Idealize.ShloMosaic

variable {F : FTy → Type} [FloatOps F]

/-- A negative index counts from the end of the table. -/
def wrapped (idx : IVec S262144x9 32) : IVec S262144x9 32 :=
  select (cmpi .slt idx (broadcastInDim S262144x9 ![] bcast_S_S262144x9 (constantI S_ 32 0#32)))
    (addi idx (broadcastInDim S262144x9 ![] bcast_S_S262144x9 (constantI S_ 32 1048576#32))) idx

/-- The gather's start indices: one per (vertex, neighbour). -/
def starts (idx : IVec S262144x9 32) : IVec S262144x9x1 32 :=
  broadcastInDim S262144x9x1 ![0, 1] bcast_S262144x9_S262144x9x1_0_1 (wrapped idx)

/-- Which (vertex, neighbour) pairs index a row of the table. -/
def inTable (idx : IVec S262144x9 32) : IVec S262144x9 1 :=
  Host.reduce IntOp.andi
    (andi (cmpi .sge (starts idx) (broadcastInDim S262144x9x1 ![] bcast_S_S262144x9x1 (constantI S_ 32 0#32)))
      (cmpi .sle (starts idx) (broadcastInDim S262144x9x1 ![0, 1, 2] bcast_S1x1x1_S262144x9x1_0_1_2
        (broadcastInDim S1x1x1 ![2] bcast_S1_S1x1x1_2 (constantI S1 32 1048575#32)))))
    (constantI S_ 1 1#1) reducesTo_S262144x9x1_S262144x9_d2 h_S_

/-- The selected rows: the table's row where the index is in the table, NaN elsewhere. -/
def taken (x : FVec F S1048576x64 .f32) (idx : IVec S262144x9 32) : FVec F S262144x9x64 .f32 :=
  select (broadcastInDim S262144x9x64 ![0, 1] bcast_S262144x9_S262144x9x64_0_1 (inTable idx))
    (Host.gather gather_S1048576x64_S262144x9x1_S262144x9x64_2_0_n_n_0_2_164 x (starts idx))
    (broadcastInDim S262144x9x64 ![] bcast_S_S262144x9x64 (constant S_ .f32 0x7FC00000#32))

/-- Each vertex's nine rows of 64 side by side: one row of 576. -/
def rows (x : FVec F S1048576x64 .f32) (idx : IVec S262144x9 32) : FVec F S262144x576 .f32 :=
  shapeCast S262144x576 (taken x idx) shapeCasts_S262144x9x64_S262144x576

end Cert.KernelIdeal.Rows

end
-- ==== Proof.LibTypedRef.lean ====
/-
  A typed reference's two transports cancel.

  A module-local function's operations are stated over references that carry the type of the tensor value they hold;
  a value is moved to the buffer's own type when it is written and back when it is read. The two moves are transports
  along one equation and its inverse, so a value written and read back is itself — for every typed reference, whatever
  the signature. General: nothing here depends on a particular program; library import only.
-/
import Idealize.ShloMosaic.Lib.StableHlo

namespace Cert.TypedRef

open Idealize.ShloMosaic Idealize.ShloMosaic.StableHlo

/-- A value moved to a typed reference's buffer type and back is itself. -/
theorem ofBuf_toBuf {sig : RefSig} {T : BufTy} {Val : EltTy → Type} (x : TRef sig T) (v : T.Contents Val) :
    x.ofBuf (x.toBuf v) = v := by
  simp only [TRef.ofBuf, TRef.toBuf, cast_cast, cast_eq]

end Cert.TypedRef
-- ==== Proof.KernelRows.lean ====
/-
  What the kernel's first operand holds when the kernel is launched.

  The kernel's program runs the take and the recast on the host before its launch, so the launch finds its first
  operand holding the rows of the launch's lattice values and neighbour indices.
-/
import proofs.«125085_j25400436588641_1_alg».proof.Proof.Gen.KernelIdeal.Frame
import proofs.«125085_j25400436588641_1_alg».proof.Proof.Rows
import proofs.«125085_j25400436588641_1_alg».proof.Proof.LibTypedRef
import Idealize.ShloMosaic.Lib.StableHlo.Run

noncomputable section

namespace Cert.KernelIdeal.Rows

open Cert.KernelIdeal Cert.KernelIdeal.Gen Idealize.ShloMosaic Idealize.ShloMosaic.TcCoe Idealize.SL.Sem
open Idealize.ShloMosaic.StableHlo

variable {F : FTy → Type} [FloatOps F]

variable (m : (ℓ : Loc nD τ sig) → Buf (Elt F) ℓ)

-- the two sides are the same operations on the same operands, met head to head once every value written to a buffer
-- and read back is rewritten to itself; the range test and the gather are compared by their operands, never opened
attribute [local irreducible] Host.reduce Host.gather in
set_option maxHeartbeats 1000000 in
/-- When the kernel is launched its first operand holds these rows of the launch's lattice values and indices. -/
theorem rows_at_launch (c : Dev nD) :
    (V m c main_v1 : S262144x576.Idx → Elt F .f32)
      = rows (m ((c : Thread nD τ).loc main_arg0)) (m ((c : Thread nD τ).loc main_arg1)) := by
  dsimp only [V]
  simp only [hostOps0, hostOps0_1, List.flatten_cons, List.flatten_nil, List.append_nil, List.cons_append,
    List.nil_append]
  after_results_simp
  simp only [Cert.TypedRef.ofBuf_toBuf]
  -- both sides are the recast of the taken rows: compared at an entry, the recast kept closed
  funext i
  unfold rows
  rfl

end Cert.KernelIdeal.Rows

end
-- ==== Proof.KernelRun.lean ====
/-
  The kernel's run, with its result named.

  The launch finds the rows in its first operand and the weights, untouched, in its second; its 64 tiles assemble
  rows · weight. So every weakly fair execution of the kernel's program ends with the result array at rows · weight —
  the rows of the launch's lattice values and neighbour indices — and the arguments as they were.
-/
import proofs.«125085_j25400436588641_1_alg».proof.Proof.KernelArray
import proofs.«125085_j25400436588641_1_alg».proof.Proof.KernelRows

noncomputable section

namespace Cert.KernelIdeal.Whole

open Cert.KernelIdeal Cert.KernelIdeal.Gen Idealize.ShloMosaic Idealize.ShloMosaic.TcCoe Idealize.SL.Sem
open Cert.Filter

variable (m : (ℓ : Loc nD τ sig) → Buf (Elt Ideal) ℓ) (ρ : Dev nD → PrngReg)

/-- The result array after the run, as a function of the argument arrays. -/
theorem result_eq (c : Dev nD) :
    (dats m 0 c).arrAt 2 cfg0.N
      = filtered (Rows.rows (m ((c : Thread nD τ).loc main_arg0)) (m ((c : Thread nD τ).loc main_arg1)))
          (m ((c : Thread nD τ).loc main_arg2)) := by
  rw [whole m c]
  exact congrArg₂ filtered (Rows.rows_at_launch m c) (V_main_arg2 m c)

/-- Every weakly fair execution of the kernel's program terminates with the result at rows · weight and the
    arguments unchanged. -/
theorem run : θ_run defs (onTc (τ := τ) (main (F := Ideal))) ⟨m, fun _ => 0, ρ⟩ fun r => ∀ c : Dev nD,
      r.2.mem ((c : Thread nD τ).loc main_v2)
        = filtered (Rows.rows (m ((c : Thread nD τ).loc main_arg0)) (m ((c : Thread nD τ).loc main_arg1)))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (result_eq m c), (h c).2⟩) (Value.run_blocks m ρ)

end Cert.KernelIdeal.Whole

end
-- ==== Proof.RefRun.lean ====
/-
  The reference's run.

  The reference is a straight line of host operations: the index wrap, the range test, the gather and the select of its
  take (a function it calls, whose operations run in place on the call's buffers), the recast of each vertex's nine
  rows into one, and the product with the weights. Every weakly fair execution runs them in order, so it ends with the
  result buffer at the product of the rows — the same function of the lattice values and the indices that the kernel's
  program computes before its launch — with the weights, and leaves the arguments as they were.
-/
import proofs.«125085_j25400436588641_1_alg».proof.Proof.Gen.ReferenceIdeal
import proofs.«125085_j25400436588641_1_alg».proof.Proof.Rows
import proofs.«125085_j25400436588641_1_alg».proof.Proof.LibTypedRef
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem
open Idealize.ShloMosaic.StableHlo

variable {F : FTy → Type} [FloatOps F]

/-- @main's operations in order: the 23 of the take, the recast, the product. -/
abbrev ops : List (HloOp τ sig (Elt F)) :=
  [ TRef.nullary (.of main_call0_c : TRef sig ⟨S_, .i32⟩) (constantI S_ 32 0#32),
    TRef.unary (.of main_call0_c : TRef sig ⟨S_, .i32⟩) (.of main_call0_v0 : TRef sig ⟨S262144x9, .i32⟩) (broadcastInDim S262144x9 ![] bcast_S_S262144x9),
    TRef.binary (.of main_arg1 : TRef sig ⟨S262144x9, .i32⟩) (.of main_call0_v0 : TRef sig ⟨S262144x9, .i32⟩) (.of main_call0_v1 : TRef sig ⟨S262144x9, .i1⟩) (cmpi .slt),
    TRef.nullary (.of main_call0_c_0 : TRef sig ⟨S_, .i32⟩) (constantI S_ 32 1048576#32),
    TRef.unary (.of main_call0_c_0 : TRef sig ⟨S_, .i32⟩) (.of main_call0_v2 : TRef sig ⟨S262144x9, .i32⟩) (broadcastInDim S262144x9 ![] bcast_S_S262144x9),
    TRef.binary (.of main_arg1 : TRef sig ⟨S262144x9, .i32⟩) (.of main_call0_v2 : TRef sig ⟨S262144x9, .i32⟩) (.of main_call0_v3 : TRef sig ⟨S262144x9, .i32⟩) addi,
    TRef.ternary (.of main_call0_v1 : TRef sig ⟨S262144x9, .i1⟩) (.of main_call0_v3 : TRef sig ⟨S262144x9, .i32⟩) (.of main_arg1 : TRef sig ⟨S262144x9, .i32⟩) (.of main_call0_v4 : TRef sig ⟨S262144x9, .i32⟩) select,
    TRef.unary (.of main_call0_v4 : TRef sig ⟨S262144x9, .i32⟩) (.of main_call0_v5 : TRef sig ⟨S262144x9x1, .i32⟩) (broadcastInDim S262144x9x1 ![0, 1] bcast_S262144x9_S262144x9x1_0_1),
    TRef.nullary (.of main_call0_c_1 : TRef sig ⟨S1, .i32⟩) (constantI S1 32 1048575#32),
    TRef.nullary (.of main_call0_c_2 : TRef sig ⟨S_, .i32⟩) (constantI S_ 32 0#32),
    TRef.unary (.of main_call0_c_2 : TRef sig ⟨S_, .i32⟩) (.of main_call0_v6 : TRef sig ⟨S262144x9x1, .i32⟩) (broadcastInDim S262144x9x1 ![] bcast_S_S262144x9x1),
    TRef.binary (.of main_call0_v5 : TRef sig ⟨S262144x9x1, .i32⟩) (.of main_call0_v6 : TRef sig ⟨S262144x9x1, .i32⟩) (.of main_call0_v7 : TRef sig ⟨S262144x9x1, .i1⟩) (cmpi .sge),
    TRef.unary (.of main_call0_c_1 : TRef sig ⟨S1, .i32⟩) (.of main_call0_v8 : TRef sig ⟨S1x1x1, .i32⟩) (broadcastInDim S1x1x1 ![2] bcast_S1_S1x1x1_2),
    TRef.unary (.of main_call0_v8 : TRef sig ⟨S1x1x1, .i32⟩) (.of main_call0_v9 : TRef sig ⟨S262144x9x1, .i32⟩) (broadcastInDim S262144x9x1 ![0, 1, 2] bcast_S1x1x1_S262144x9x1_0_1_2),
    TRef.binary (.of main_call0_v5 : TRef sig ⟨S262144x9x1, .i32⟩) (.of main_call0_v9 : TRef sig ⟨S262144x9x1, .i32⟩) (.of main_call0_v10 : TRef sig ⟨S262144x9x1, .i1⟩) (cmpi .sle),
    TRef.binary (.of main_call0_v7 : TRef sig ⟨S262144x9x1, .i1⟩) (.of main_call0_v10 : TRef sig ⟨S262144x9x1, .i1⟩) (.of main_call0_v11 : TRef sig ⟨S262144x9x1, .i1⟩) andi,
    TRef.nullary (.of main_call0_c_3 : TRef sig ⟨S_, .i1⟩) (constantI S_ 1 1#1),
    TRef.binary (.of main_call0_v11 : TRef sig ⟨S262144x9x1, .i1⟩) (.of main_call0_c_3 : TRef sig ⟨S_, .i1⟩) (.of main_call0_v12 : TRef sig ⟨S262144x9, .i1⟩) (fun x v => Host.reduce IntOp.andi x v reducesTo_S262144x9x1_S262144x9_d2 h_S_),
    TRef.binary (.of main_arg0 : TRef sig ⟨S1048576x64, .f32⟩) (.of main_call0_v5 : TRef sig ⟨S262144x9x1, .i32⟩) (.of main_call0_v13 : TRef sig ⟨S262144x9x64, .f32⟩) (fun x i => Host.gather gather_S1048576x64_S262144x9x1_S262144x9x64_2_0_n_n_0_2_164 x i),
    TRef.unary (.of main_call0_v12 : TRef sig ⟨S262144x9, .i1⟩) (.of main_call0_v14 : TRef sig ⟨S262144x9x64, .i1⟩) (broadcastInDim S262144x9x64 ![0, 1] bcast_S262144x9_S262144x9x64_0_1),
    TRef.nullary (.of main_call0_cst : TRef sig ⟨S_, .f32⟩) (constant S_ .f32 0x7FC00000#32),
    TRef.unary (.of main_call0_cst : TRef sig ⟨S_, .f32⟩) (.of main_call0_v15 : TRef sig ⟨S262144x9x64, .f32⟩) (broadcastInDim S262144x9x64 ![] bcast_S_S262144x9x64),
    TRef.ternary (.of main_call0_v14 : TRef sig ⟨S262144x9x64, .i1⟩) (.of main_call0_v13 : TRef sig ⟨S262144x9x64, .f32⟩) (.of main_call0_v15 : TRef sig ⟨S262144x9x64, .f32⟩) (.of main_v0 : TRef sig ⟨S262144x9x64, .f32⟩) select,
    reshape main_v0 main_v1 rfl shapeCasts_S262144x9x64_S262144x576,
    binary main_v1 main_arg2 main_v2 ((fun l r => Host.dotGeneral dot_S262144x576_S576x128_S262144x128_1_0_0_1_n_n none l r) : (⟨S262144x576, .f32⟩ : BufTy).Contents (Elt F) → (⟨S576x128, .f32⟩ : BufTy).Contents (Elt F) → (⟨S262144x128, .f32⟩ : BufTy).Contents (Elt F)) ]

/-- @main is that straight line: the called functions' bodies unfolded at their calls, the sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., reshape_bufs_sub .., binary_bufs_sub ..⟩

-- the two sides are the same operations on the same operands, met head to head once every value written to a buffer
-- and read back is rewritten to itself; the range test, the gather and the product are compared by their operands,
-- never opened
attribute [local irreducible] Host.reduce Host.gather FloatOps.dotGeneral in
set_option maxHeartbeats 1000000 in
/-- What the straight line leaves in the result buffer: the product of the rows with the weights. -/
theorem result_eq (V : Valuation τ sig (Elt F)) :
    after ops V (main_v2 : DevRef τ sig)
      = (Host.dotGeneral dot_S262144x576_S576x128_S262144x128_1_0_0_1_n_n none
          (Cert.KernelIdeal.Rows.rows (V (main_arg0 : DevRef τ sig)) (V (main_arg1 : DevRef τ sig)))
          (V (main_arg2 : DevRef τ sig)) : FVec F S262144x128 .f32) := by
  after_results_simp
  simp only [Cert.TypedRef.ofBuf_toBuf]
  refine congrArg (fun R => (Host.dotGeneral dot_S262144x576_S576x128_S262144x128_1_0_0_1_n_n none R (V (main_arg2 : DevRef τ sig)) : FVec F S262144x128 .f32)) ?_
  -- both sides are the recast of the taken rows: compared at an entry, the recast kept closed
  funext i
  unfold Cert.KernelIdeal.Rows.rows
  rfl

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp

/-- On every device, from any memory with zero counters: every weakly fair execution of @main terminates with the
    result at the product of the rows with the weights, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2)
        = (Host.dotGeneral dot_S262144x576_S576x128_S262144x128_1_0_0_1_n_n none
            (Cert.KernelIdeal.Rows.rows (m ((c.tc : Thread nD τ).loc main_arg0)) (m ((c.tc : Thread nD τ).loc main_arg1)))
            (m ((c.tc : Thread nD τ).loc main_arg2)) : FVec F S262144x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v2).trans (result_eq _),
      (h c main_arg0).trans (arg0_eq _),
      (h c main_arg1).trans (arg1_eq _),
      (h c main_arg2).trans (arg2_eq _)⟩)
    (run_seq scopedRefs_eq scopedSems_eq defs main (fun _ => ops) main_eq (fun _ => ops_sub) m ρ)

end Cert.ReferenceIdeal.RefRun

end
-- ==== Proof.RefProduct.lean ====
/-
  The reference's product, read entry by entry.

  The reference multiplies the whole 262144 × 576 array of rows into the 576 × 128 weight matrix in one host product.
  On the extended reals that product's entry (p, q) is the sum over the contraction index of rows (p, k) · weight (k, q):
  the same function of the rows and the weights that the kernel's tiles assemble.
-/
import proofs.«125085_j25400436588641_1_alg».proof.Proof.Gen.ReferenceIdeal
import proofs.«125085_j25400436588641_1_alg».proof.Proof.LibProductAt
import proofs.«125085_j25400436588641_1_alg».proof.Proof.Filter
import Idealize.ShloMosaic.PureOps.Ideal.Laws

noncomputable section

namespace Cert.ReferenceIdeal.Product

open Cert.ReferenceIdeal Cert.ReferenceIdeal.Gen Idealize.ShloMosaic Cert.ProductAt Cert.Filter

/-- The product's dimension numbers keep the result's row as the left factor's row. -/
theorem keeps_row (j : S262144x128.Idx) (q : dot_S262144x576_S576x128_S262144x128_1_0_0_1_n_n.contr.Idx) :
    (dot_S262144x576_S576x128_S262144x128_1_0_0_1_n_n.lhsIdx j q 0).val = (j 0).val := by
  unfold DotDims.lhsIdx
  rw [dif_neg (by decide), dif_pos (by decide)]
  rfl

/-- and its column as the right factor's column. -/
theorem keeps_col (j : S262144x128.Idx) (q : dot_S262144x576_S576x128_S262144x128_1_0_0_1_n_n.contr.Idx) :
    (dot_S262144x576_S576x128_S262144x128_1_0_0_1_n_n.rhsIdx j q 1).val = (j 1).val := by
  unfold DotDims.rhsIdx
  rw [dif_neg (by decide), dif_pos (by decide)]
  rfl

/-- The host product of any rows and weights is rows · weight, entry by entry. -/
theorem product_eq (R : FVec Ideal S262144x576 .f32) (W : FVec Ideal S576x128 .f32) :
    (Host.dotGeneral dot_S262144x576_S576x128_S262144x128_1_0_0_1_n_n none R W : FVec Ideal S262144x128 .f32) = filtered R W := by
  funext i
  refine (Ideal.dotGeneral_apply dot_S262144x576_S576x128_S262144x128_1_0_0_1_n_n none .single R W i).trans ?_
  exact product_sum_eq (φ₁ := .f32) (φ₂ := .f32) dot_S262144x576_S576x128_S262144x128_1_0_0_1_n_n rfl rfl rfl rfl keeps_row keeps_col R W i

end Cert.ReferenceIdeal.Product

end
-- ==== Proof.lean ====
/-
  A coarsened lattice: each coarse vertex gathers the 64 values of its nine fine neighbours and applies a learned
  576 × 128 linear filter. The kernel gathers on the host, then multiplies tile by tile (4096 rows at a time, operands
  narrowed to bf16, accumulation in f32); the reference gathers the same way and multiplies once.

  On the extended reals narrowing changes nothing, and a product into a zero accumulator and a host product are both
  the exact sum over k < 576 of rows (p, k) · weight (k, q). The gather — the index wrap, the range test, the rows of
  NaN for indices outside the table, the recast to rows of 576 — is the same operations on the same literals in both
  programs, so it is carried as one function (Proof/Rows.lean) that is never opened. The kernel's 64 tiles are disjoint and
  cover the result, and entry (p, q) reads only row p of the rows, so the tiles assemble the whole product
  (Proof/KernelTile.lean, Proof/KernelArray.lean, Proof/KernelRun.lean); the reference's straight line ends at the same
  product of the same rows (Proof/RefRun.lean, Proof/RefProduct.lean). No law used needs finiteness: the two sides are the same sum.
  The ideal pass rewrote nothing, so the kernel's idealization is its own text read on the extended reals.
-/
import proofs.«125085_j25400436588641_1_alg».proof.Defs
import proofs.«125085_j25400436588641_1_alg».proof.Proof.Gen.Kernel
import proofs.«125085_j25400436588641_1_alg».proof.Proof.Gen.Kernel.Frame
import proofs.«125085_j25400436588641_1_alg».proof.Proof.Gen.KernelIdeal
import proofs.«125085_j25400436588641_1_alg».proof.Proof.Gen.KernelIdeal.Frame
import proofs.«125085_j25400436588641_1_alg».proof.Proof.Gen.KernelIdeal.Value
import proofs.«125085_j25400436588641_1_alg».proof.Proof.Gen.ReferenceIdeal
import proofs.«125085_j25400436588641_1_alg».proof.Proof.Gen.Pre_finite_inputs
import proofs.«125085_j25400436588641_1_alg».proof.Proof.KernelRun
import proofs.«125085_j25400436588641_1_alg».proof.Proof.RefRun
import proofs.«125085_j25400436588641_1_alg».proof.Proof.RefProduct
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote no operation. -/
theorem preserves : Cert.preserves_Kernel_KernelIdeal := trivial

/-- Both programs end with the result at rows · weight, the rows of the same lattice values and indices: the
    kernel's by its tiles, the reference's by its one product. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  exact Cert.ReferenceIdeal.Product.product_eq _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
